-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  reducesTo_S16x2048x2048_S16x2048_d2 : S16x2048x2048.ReducesTo [2] S16x2048
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_v13 : IVec S_ 1) (main_v14 : FVec F S16x2048 .f32) (main_v15 : FVec F S16x2048 .f32) : IVec S_ 1 :=
  let main_v16 : FVec F S16x2048 .f32 := addf main_v15 main_v14
  let main_cst_6 : FVec F S_ .f32 := constant S_ .f32 0x00000000#32
  let main_v17 : FVec F S16x2048 .f32 := broadcastInDim S16x2048 ![] bcast_S_S16x2048 main_cst_6
  let main_v18 : IVec S16x2048 1 := cmpf .une main_v16 main_v17
  let main_c_7 : IVec S_ 1 := constantI S_ 1 1#1
  let main_v19 : IVec S_ 1 := (fun x v => Host.reduce IntOp.andi x v reducesTo_S16x2048_S_d0_1 h_S_) main_v18 main_c_7
  let main_v20 : IVec S_ 1 := andi main_v13 main_v19
  main_v20

def fn {F : FTy → Type} [FloatOps F] (main_arg0 : FVec F S16x2048x64 .f32) (main_arg1 : FVec F S16x2048x64 .f32) (main_arg2 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  let main_cst_4 : FVec F S_ .f32 := constant S_ .f32 0x00000000#32
  let main_v14 : FVec F S16x2048 .f32 := (fun x v => Host.reduceAdd x v reducesTo_S16x2048x2048_S16x2048_d2 h_S_) main_arg2 main_cst_4
  let main_cst_5 : FVec F S_ .f32 := constant S_ .f32 0x3F800000#32
  let main_v15 : FVec F S16x2048 .f32 := broadcastInDim S16x2048 ![] bcast_S_S16x2048 main_cst_5
  fn_part1 (F := F) main_v13 main_v14 main_v15
-- ==== Kernel.lean ====
abbrev S16x2048x64 : Shape := ⟨3, ![16, 2048, 64]⟩
abbrev S16x2048x2048 : Shape := ⟨3, ![16, 2048, 2048]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S1024 : Shape := ⟨1, ![1024]⟩
abbrev S1024x1 : Shape := ⟨2, ![1024, 1]⟩
abbrev S2048x64 : Shape := ⟨2, ![2048, 64]⟩
abbrev S1024x64 : Shape := ⟨2, ![1024, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x2048, .f32⟩
  | .hbm, ⟨3, _⟩ => ⟨S16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v13 : BitVec 32 := Scalar.muli arg1 c1024_i32
  v13
def k0_off1 (i : grid0.Coords) : Fin 3 → Nat :=
  let c0_8 : Index := 0#32
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_9 : Index := 0#32
  ![0, v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x1024x64 : 0 < S1x1024x64.numel
  shapeCasts_S1x1024x64_S1024x64 : S1x1024x64.ShapeCasts S1024x64
  broadcasts_S1024x1_S1024x64 : S1024x1.Broadcasts S1024x64
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x2048x64.size a
  hwx0_2 : ∀ i : grid0.Coords, EltTy.bits .f32 = 32 ∨ (Rect.block (s := S16x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg2) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S2048x2048 : Shape := ⟨2, ![2048, 2048]⟩
abbrev S_ : Shape := ⟨0, ![]⟩
abbrev S16x2048 : Shape := ⟨2, ![16, 2048]⟩
abbrev S1x2048x2048 : Shape := ⟨3, ![1, 2048, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x2048, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S1x2048x2048, .f32⟩
  | .hbm, ⟨19, _⟩ => ⟨S16x2048x2048, .f32⟩
  | .hbm, ⟨20, _⟩ => ⟨S16x2048x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x64, .f32⟩
  | .hbm, ⟨25, _⟩ => ⟨S_, .f32⟩
  | .hbm, ⟨26, _⟩ => ⟨S16x2048x64, .f32⟩
  | .hbm, ⟨27, _⟩ => ⟨S16x2048x64, .f32⟩
  | .hbm, ⟨28, _⟩ => ⟨S_, .f32⟩
  | .hbm, ⟨29, _⟩ => ⟨S16x2048x64, .f32⟩
  | .hbm, ⟨30, _⟩ => ⟨S16x2048x64, .f32⟩
  | .hbm, ⟨31, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x64 : S_.BroadcastsInDim S16x2048x64 (![] : Fin 0 → Fin S16x2048x64.rank)
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  The graph layer both programs compute, as ONE function of the three argument arrays, index by index over the extended reals.

  For a batch `c`, a node `n` and a feature `d`, with `A` the adjacency weights, `x` the node features and `h` the carried state:

      layer x h A c n d = ½ · h[c,n,d] + ½ · ((Σₖ A[c,n,k] · x[c,k,d] + x[c,n,d]) · (1 / (1 + Σₖ A[c,n,k])))

  This is the arrangement in which the self loop is added AFTER the product and the row is scaled once; the other arrangement
  scales every entry of the row of `A + I` first and multiplies afterwards. The two agree whenever the entries are finite and the
  scale `1 / (1 + Σₖ A[c,n,k])` is finite (`scaled_rows`): over the reals this is distributivity,
  `Σₖ ((aₖ + δₙₖ) · r) · xₖ = (Σₖ aₖ · xₖ + xₙ) · r`, and it fails on the extended reals exactly where the scale is infinite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literal `0.5` both programs blend with (never evaluated: the same word on both sides). -/
abbrev half : EReal := Ideal.ofBits .f32 0x3F000000#32
/-- The literal `1.0` of the self loop's degree and of the reciprocal's numerator. -/
abbrev one : EReal := Ideal.ofBits .f32 0x3F800000#32

/-- The word `0x3F800000` denotes the real number one. -/
theorem one_eq : one = ((1 : ℝ) : EReal) := by
  show Ideal.ofBits .f32 0x3F800000#32 = _
  simp [Ideal.ofBits, Ideal.ieee, -EReal.coe_mul]
  norm_num

/-- One plus the degree of node `n` of batch `c`: `1 + Σₖ A[c,n,k]`. -/
def onePlusDeg (A : (⟨3, ![16, 2048, 2048]⟩ : Shape).Idx → EReal) (c : Fin 16) (n : Fin 2048) : EReal :=
  one + ∑ k : Fin 2048, A (ix3 c n k)

/-- The layer at batch `c`, node `n`, feature `d`. -/
def layer (x h : (⟨3, ![16, 2048, 64]⟩ : Shape).Idx → EReal) (A : (⟨3, ![16, 2048, 2048]⟩ : Shape).Idx → EReal)
    (c : Fin 16) (n : Fin 2048) (d : Fin 64) : EReal :=
  half * h (ix3 c n d)
    + half * (((∑ k : Fin 2048, A (ix3 c n k) * x (ix3 c k d)) + x (ix3 c n d)) * Ideal.div one (onePlusDeg A c n))

/-- The layer as a whole array. -/
def G (x h : (⟨3, ![16, 2048, 64]⟩ : Shape).Idx → EReal) (A : (⟨3, ![16, 2048, 2048]⟩ : Shape).Idx → EReal) :
    (⟨3, ![16, 2048, 64]⟩ : Shape).Idx → EReal :=
  fun i => layer x h A (i 0) (i 1) (i 2)

/-! ## The law between the two arrangements -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: scaling every entry of the row of `A + I` by `r` and then multiplying by `x` is multiplying first, adding the
    node's own features, and scaling once. -/
theorem scaled_rows_real {ι : Type*} [Fintype ι] [DecidableEq ι] (a x : ι → ℝ) (n : ι) (r : ℝ) :
    ∑ k, ((a k + (if n = k then 1 else 0)) * r) * x k = (∑ k, a k * x k + x n) * r := by
  have e : ∀ k, ((a k + (if n = k then (1 : ℝ) else 0)) * r) * x k = a k * x k * r + (if n = k then x k * r else 0) := fun k => by
    by_cases hk : n = k
    · rw [if_pos hk, if_pos hk]; ring
    · rw [if_neg hk, if_neg hk]; ring
  rw [Finset.sum_congr rfl fun k _ => e k, Finset.sum_add_distrib, Finset.sum_ite_eq, if_pos (Finset.mem_univ n),
    ← Finset.sum_mul, add_mul]

/-- Over the extended reals, for finite entries and a finite scale: the same. `δ` is the row of the identity matrix. -/
theorem scaled_rows {ι : Type*} [Fintype ι] [DecidableEq ι] (A x δ : ι → EReal) (n : ι) (R : EReal)
    (hA : ∀ k, ∃ r : ℝ, A k = r) (hx : ∀ k, ∃ r : ℝ, x k = r) (hδ : ∀ k, δ k = (((if n = k then 1 else 0) : ℝ) : EReal))
    (hR : ∃ r : ℝ, R = r) :
    ∑ k, ((A k + δ k) * R) * x k = (∑ k, A k * x k + x n) * R := by
  choose a ha using hA
  choose y hy using hx
  obtain ⟨r, rfl⟩ := hR
  have l : ∀ k, ((A k + δ k) * (r : EReal)) * x k = (((a k + (if n = k then 1 else 0)) * r * y k : ℝ) : EReal) := fun k => by
    rw [ha k, hδ k, hy k, ← EReal.coe_add, ← EReal.coe_mul, ← EReal.coe_mul]
  have p : ∀ k, A k * x k = ((a k * y k : ℝ) : EReal) := fun k => by rw [ha k, hy k, ← EReal.coe_mul]
  rw [Finset.sum_congr rfl fun k _ => l k, Finset.sum_congr rfl fun k _ => p k, ← coe_sum, ← coe_sum, hy n, ← EReal.coe_add,
    ← EReal.coe_mul, scaled_rows_real]

end Cert.Spec

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.Payload.lean ====
import proofs.«179840_j75153337745451_2_alg».proof.Proof.Gen.KernelIdeal.Skeleton
import proofs.«179840_j75153337745451_2_alg».proof.Proof.Spec
import proofs.«179840_j75153337745451_2_alg».proof.Proof.LibPlainDot
import proofs.«179840_j75153337745451_2_alg».proof.Proof.LibColumn
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec

/-- A row sum: the lane reduction of a `[1024, 2048]` tile at row `p` is the sum of that row. -/
theorem rowSum_apply (v : FVec Ideal S1024x2048 .f32) (p : Fin 1024) :
    multiReduction .add [1] S1024 v 0x00000000#32 reduces_S1024x2048_S1024 (.inl rfl) rfl (ix1 p) = ∑ k : Fin 2048, v (ix2 p k) :=
  (Ideal.multiReduction_add_single v _ reduces_S1024x2048_S1024 _ _ (ix1 p)).trans
    (Finset.sum_congr rfl fun k _ => congrArg v (funext fun a => Fin.ext (by match a with | ⟨0, _⟩ => rfl | ⟨1, _⟩ => rfl)))

/-- The tile product: the printed dimension numbers are the plain matrix product's. -/
theorem tileDot_apply (l : FVec Ideal S1024x2048 .bf16) (r : FVec Ideal S2048x64 .bf16) (p : Fin 1024) (q : Fin 64) :
    matmul dot_S1024x2048_S2048x64_S1024x64_1_0_0_1_n_n none l r (constant S1024x64 .f32 0x00000000#32) (ix2 p q)
      = ∑ k : Fin 2048, l (ix2 p k) * r (ix2 k q) :=
  PlainDot.matmul_apply_ix2 (M := 1024) (K := 2048) (N := 64) none l r p q

theorem pay_apply (x0 : Vec Ideal S1x1024x2048 .f32) (x1 : Vec Ideal S1x2048x64 .f32) (x16 x2 : Vec Ideal S1x1024x64 .f32)
    (u : Fin 1) (p : Fin 1024) (q : Fin 64) :
    k0_pay1 (F := Ideal) x0 x1 x16 x2 (ix3 u p q)
      = half * x2 (ix3 (0 : Fin 1) p q)
        + half * (((∑ k : Fin 2048, x0 (ix3 (0 : Fin 1) p k) * x1 (ix3 (0 : Fin 1) k q)) + x16 (ix3 (0 : Fin 1) p q))
            * Ideal.div one (one + ∑ k : Fin 2048, x0 (ix3 (0 : Fin 1) p k))) := by
  unfold k0_pay1
  dsimp only
  rw [shapeCast_ab_1ab_apply]
  simp only [addf_apply, mulf_apply, broadcast_apply, divf_apply]
  rw [shapeCast_1ab_ab_apply x2, shapeCast_1ab_ab_apply x16, Column.broadcastTo_a1_ab_apply]
  simp only [divf_apply, addf_apply, broadcast_apply]
  rw [Column.shapeCast_a_a1_apply, rowSum_apply, tileDot_apply]
  simp only [truncf_apply, shapeCast_1ab_ab_apply]
  rfl

end Cert.KernelIdeal.Payload

end
-- ==== Proof.PointValue.lean ====
/-
  The body's arithmetic at one entry of the tile, over the whole arrays: if the loaded tiles are the blocks of `A`, `x` and `h` that
  belong to batch `c` and to the tile's rows, then the entry for tile row `p` (node `n`) and feature `q` is the layer's value at
  `(c, n, q)`.
-/
import proofs.«179840_j75153337745451_2_alg».proof.Proof.Payload

noncomputable section

namespace Cert.KernelIdeal.Payload

open Cert.KernelIdeal Cert.KernelIdeal.Gen Idealize.ShloMosaic Idealize.ShloMosaic.ValueIdx Cert.Spec

theorem point_eq (X H : (⟨3, ![16, 2048, 64]⟩ : Shape).Idx → EReal) (A : (⟨3, ![16, 2048, 2048]⟩ : Shape).Idx → EReal)
    (x0 : Vec Ideal S1x1024x2048 .f32) (x1 : Vec Ideal S1x2048x64 .f32) (x16 x2 : Vec Ideal S1x1024x64 .f32)
    (c : Fin 16) (n : Fin 2048) (p : Fin 1024)
    (h0 : ∀ k : Fin 2048, x0 (ix3 (0 : Fin 1) p k) = A (ix3 c n k))
    (h1 : ∀ (k : Fin 2048) (q : Fin 64), x1 (ix3 (0 : Fin 1) k q) = X (ix3 c k q))
    (h16 : ∀ q : Fin 64, x16 (ix3 (0 : Fin 1) p q) = X (ix3 c n q))
    (h2 : ∀ q : Fin 64, x2 (ix3 (0 : Fin 1) p q) = H (ix3 c n q))
    (u : Fin 1) (q : Fin 64) :
    k0_pay1 (F := Ideal) x0 x1 x16 x2 (ix3 u p q) = layer X H A c n q := by
  rw [pay_apply]
  simp only [h0, h1, h16, h2]
  rfl

end Cert.KernelIdeal.Payload

end
-- ==== Proof.Piece.lean ====
/-
  What the kernel body leaves in the output's staging buffer at a grid point, as a value: the body has one store, which covers the
  whole block, and its payload is the body's arithmetic (`Gen.k0_pay1`) of the four loads — the adjacency tile, the whole feature
  matrix of the batch, the tile's own rows of that matrix (a load at the row offset `1024 · ni`), and the state tile. For any float
  instance.
-/
import proofs.«179840_j75153337745451_2_alg».proof.Proof.Gen.KernelIdeal.Frame
import Idealize.ShloMosaic.Lib.Pipeline.Value
import Idealize.ShloMosaic.Lib.Tactic

noncomputable section

namespace Cert.KernelIdeal.Piece

open Idealize.ShloMosaic Idealize.ShloMosaic.TcCoe Idealize.SL.Sem
open Cert.KernelIdeal Cert.KernelIdeal.Gen

variable {F : FTy → Type} [FloatOps F]

theorem zero_offsets : (![0, 0, 0] : Fin 3 → Nat) = fun _ => 0 := funext fun a => by fin_cases a <;> rfl

/-- The staging buffer's contents after the body: the one covering store's payload, its loads read off the staged blocks. -/
theorem out_eq (c : Dev nD) (i : grid0.Coords) (arg2 : Memref sig .tc .vmem S1x1024x2048 .f32) (harg2 : arg2.IsWhole)
    (arg3 : Memref sig .tc .vmem S1x2048x64 .f32) (harg3 : arg3.IsWhole) (arg4 : Memref sig .tc .vmem S1x1024x64 .f32)
    (harg4 : arg4.IsWhole) (arg5 : Memref sig .tc .vmem S1x1024x64 .f32) (harg5 : arg5.IsWhole)
    (x0 : Vec F S1x1024x2048 .f32) (x1 : Vec F S1x2048x64 .f32) (x2 : Vec F S1x1024x64 .f32) :
    out0_A_3 c i arg2 harg2 arg3 harg3 arg4 harg4 arg5 harg5 x0 x1 x2
      = k0_pay1 x0 x1 (View.ld x1 (Rect.unit (s := S1x2048x64) (k0_off1 i) S1x1024x64.size (k0_off1_inb i))) x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero_offsets]
  simp only [View.readAt_eq_ld, harg2.read_unread, harg3.read_unread, harg4.read_unread,
    View.ld_unit_zero (S := S1x1024x2048) zero_offsets, View.ld_unit_zero (S := S1x2048x64) zero_offsets,
    View.ld_unit_zero (S := S1x1024x64) zero_offsets]

end Cert.KernelIdeal.Piece

end
-- ==== Proof.Blocks.lean ====
/-
  From what each grid point writes back to the whole result array, over the extended reals.

  The grid is `(c, ni)`, sixteen batches by two row tiles. At a point the adjacency window holds rows `1024·ni … 1024·ni + 1023` of
  `A[c]` at full width, the feature window all of `x[c]`, the state and the output windows rows `1024·ni …` of `h[c]` and of the
  result. The body also reads rows `1024·ni …` of the staged `x[c]` (the self loop's term). So entry `(p, q)` of the tile written back
  at `(c, ni)` depends on row `1024·ni + p` of `A[c]`, on column `q` of `x[c]`, and on `h[c, 1024·ni + p, q]`: it is the layer's value
  at `(c, 1024·ni + p, q)` (`flushed_eq`). The thirty-two output blocks tile the result array — the block holding row `r` of batch
  `c` is the one at `(c, r / 1024)` — so the array ends holding the layer everywhere (`final`).
-/
import proofs.«179840_j75153337745451_2_alg».proof.Proof.Gen.KernelIdeal.Value
import proofs.«179840_j75153337745451_2_alg».proof.Proof.PointValue
import proofs.«179840_j75153337745451_2_alg».proof.Proof.Piece

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Payload

variable (m : (ℓ : Loc nD τ sig) → Buf (Elt Ideal) ℓ) (ρ : Dev nD → PrngReg)

/-- The printed index maps, decided over the thirty-two points: the adjacency, state and output windows move together over
    (batch, row tile), the feature window with the batch alone, no window moves along its last axis, and the body's extra load
    starts at the output tile's first row. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3) ∧ win0_2.index t (2 : Fin 3) = 0
    ∧ win0_3.index t (2 : Fin 3) = 0 ∧ win0_3.index t (0 : Fin 3) ≤ 15 ∧ win0_3.index t (1 : Fin 3) ≤ 1
    ∧ k0_off1 (grid0.coords t) = ![0, win0_3.index t (1 : Fin 3) * 1024, 0] :=
  (by decide +kernel : ∀ t : Fin grid0.N, _)

/-- Every (batch, row tile) is some point's output block. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- The layer of the argument arrays as the region finds them. -/
abbrev result (c : Dev nD) : S16x2048x64.Idx → EReal := G (V m c main_arg0) (V m c main_arg1) (V m c main_arg2)

/-- What point `t` writes back is block `t` of the layer of the argument arrays. -/
theorem flushed_eq (c : Dev nD) (t : Fin cfg0.N) :
    (dats m 0 c).flushed 3 t = ((cfg0.win 3).blk t).view.read (Elt Ideal) (result m c) := by
  rw [Value.flushed3_A, Piece.out_eq]
  obtain ⟨a0, a1, a2, b0, b1, b2, c0, c1, c2, d2, d0, d1, eoff⟩ := idx_facts t
  funext j
  obtain ⟨u, p, q, rfl⟩ : ∃ (u : Fin 1) (p : Fin 1024) (q : Fin 64), j = ix3 u p q := ⟨j 0, j 1, j 2, eq_ix3 j⟩
  show k0_pay1 (F := Ideal) (iblk m c 0 t) (iblk m c 1 t) (View.ld (iblk m c 1 t) (Rect.unit (s := S1x2048x64) (k0_off1 (grid0.coords t)) S1x1024x64.size (k0_off1_inb _))) (iblk m c 2 t) (ix3 u p q) = G (V m c main_arg0) (V m c main_arg1) (V m c main_arg2) (((cfg0.win 3).blk t).view.emb (ix3 u p q))
  have hp := p.isLt
  have hu : u.val = 0 := by omega
  refine (point_eq (V m c main_arg0) (V m c main_arg1) (V m c main_arg2) (iblk m c 0 t) (iblk m c 1 t) _ (iblk m c 2 t)
    ⟨win0_3.index t (0 : Fin 3), by omega⟩ ⟨win0_3.index t (1 : Fin 3) * 1024 + p.val, by omega⟩ p ?_ ?_ ?_ ?_ u q).trans ?_
  · intro k
    unfold iblk
    rw [View.read_apply]
    show V m c main_arg2 _ = V m c main_arg2 _
    congr 1
    funext a
    apply Fin.ext
    match a with
    | ⟨0, _⟩ => show win0_0.index t (0 : Fin 3) * 1 + 1 * 0 = win0_3.index t (0 : Fin 3); omega
    | ⟨1, _⟩ => show win0_0.index t (1 : Fin 3) * 1024 + 1 * p.val = win0_3.index t (1 : Fin 3) * 1024 + p.val; omega
    | ⟨2, _⟩ => show win0_0.index t (2 : Fin 3) * 2048 + 1 * k.val = k.val; omega
  · intro k q'
    unfold iblk
    rw [View.read_apply]
    show V m c main_arg0 _ = V m c main_arg0 _
    congr 1
    funext a
    apply Fin.ext
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * q'.val = q'.val; omega
  · intro q'
    unfold iblk
    show V m c main_arg0 _ = V m c main_arg0 _
    congr 1
    funext a
    apply Fin.ext
    have eo0 : k0_off1 (grid0.coords t) (0 : Fin 3) = 0 := by rw [eoff]; rfl
    have eo1 : k0_off1 (grid0.coords t) (1 : Fin 3) = win0_3.index t (1 : Fin 3) * 1024 := by rw [eoff]; rfl
    have eo2 : k0_off1 (grid0.coords t) (2 : Fin 3) = 0 := by rw [eoff]; rfl
    match a with
    | ⟨0, _⟩ => show win0_1.index t (0 : Fin 3) * 1 + 1 * (k0_off1 (grid0.coords t) (0 : Fin 3) + 1 * 0) = win0_3.index t (0 : Fin 3); omega
    | ⟨1, _⟩ => show win0_1.index t (1 : Fin 3) * 2048 + 1 * (k0_off1 (grid0.coords t) (1 : Fin 3) + 1 * p.val) = win0_3.index t (1 : Fin 3) * 1024 + p.val; omega
    | ⟨2, _⟩ => show win0_1.index t (2 : Fin 3) * 64 + 1 * (k0_off1 (grid0.coords t) (2 : Fin 3) + 1 * q'.val) = q'.val; omega
  · intro q'
    unfold iblk
    rw [View.read_apply]
    show V m c main_arg1 _ = V m c main_arg1 _
    congr 1
    funext a
    apply Fin.ext
    match a with
    | ⟨0, _⟩ => show win0_2.index t (0 : Fin 3) * 1 + 1 * 0 = win0_3.index t (0 : Fin 3); omega
    | ⟨1, _⟩ => show win0_2.index t (1 : Fin 3) * 1024 + 1 * p.val = win0_3.index t (1 : Fin 3) * 1024 + p.val; omega
    | ⟨2, _⟩ => show win0_2.index t (2 : Fin 3) * 64 + 1 * q'.val = q'.val; omega
  · unfold G
    have e0 : ((cfg0.win 3).blk t).view.emb (ix3 u p q) 0 = (⟨win0_3.index t (0 : Fin 3), by omega⟩ : Fin 16) :=
      Fin.ext (by show win0_3.index t (0 : Fin 3) * 1 + 1 * u.val = win0_3.index t (0 : Fin 3); omega)
    have e1 : ((cfg0.win 3).blk t).view.emb (ix3 u p q) 1 = (⟨win0_3.index t (1 : Fin 3) * 1024 + p.val, by omega⟩ : Fin 2048) :=
      Fin.ext (by show win0_3.index t (1 : Fin 3) * 1024 + 1 * p.val = win0_3.index t (1 : Fin 3) * 1024 + p.val; omega)
    have e2 : ((cfg0.win 3).blk t).view.emb (ix3 u p q) 2 = q :=
      Fin.ext (by show win0_3.index t (2 : Fin 3) * 64 + 1 * q.val = q.val; omega)
    exact congr (congr (congrArg (layer (V m c main_arg0) (V m c main_arg1) (V m c main_arg2)) e0.symm) e1.symm) e2.symm

/-- An index of the result array is in point `t`'s block iff each coordinate is in the block's range on its axis. -/
theorem mem_blk (t : Fin cfg0.N) (i : S16x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- The blocks tile the array: row `r` of batch `c` lies in the block of the point at `(c, r / 1024)`. -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the run is the layer of the argument arrays. -/
theorem final (c : Dev nD) : (dats m 0 c).arrAt 3 cfg0.N = result m c :=
  (dats m 0 c).arrAt_eq_of_cover 3 (result m c) (fun t _ => flushed_eq m c t) cover

/-- The kernel's run, read: the result array at the layer of the launch contents of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefValue.lean ====
/-
  The reference, read at an index over the extended reals.

  It forms the normalised adjacency `Â[c,n,k] = (A[c,n,k] + I[n,k]) · (1 / (1 + Σₖ' A[c,n,k']))` — the identity matrix as an
  equality test of two index grids converted to a float, the reciprocal of one plus the row sum broadcast along the row —, contracts
  it with the features, `Σₖ Â[c,n,k] · x[c,k,d]`, and blends with the state: `½ · h[c,n,d] + ½ · Σₖ Â[c,n,k] · x[c,k,d]`.
  Each stage is read at coordinates (`eye_apply`, `scale_apply`, `normAdj_apply`, `propagate_apply`, `ref_apply`); where the
  entries are finite and one plus the row sum is not zero, the scaled rows are the layer's arrangement (`ref_eq`, by `scaled_rows`).
-/
import proofs.«179840_j75153337745451_2_alg».proof.Proof.Gen.ReferenceIdeal.Read
import proofs.«179840_j75153337745451_2_alg».proof.Proof.Spec
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx Cert.Spec

/-- The reference's zero, the start of its row sum. -/
abbrev zero : EReal := Ideal.ofBits .f32 0x00000000#32

/-- The identity matrix: the equality test of the row and the column index, as a float, is one on the diagonal and zero off it. -/
theorem eye_apply (n k : Fin 2048) :
    val_main_v5 (F := Ideal) (ix2 n k) = (((if n = k then 1 else 0 : ℝ)) : EReal) := by
  rw [val_main_v5_apply, val_main_v4_apply, val_main_v3_apply, val_main_v0_apply, val_main_v1_apply, val_main_v2_apply,
    val_main_c_apply]
  show (((IntOp.cmpi .eq (IntOp.addi (BitVec.ofNat 32 n.val) 0#32) (BitVec.ofNat 32 k.val)).toNat : ℝ) : EReal) = _
  have hn := n.isLt
  have hk := k.isLt
  by_cases h : n = k
  · have e : IntOp.cmpi .eq (IntOp.addi (BitVec.ofNat 32 n.val) 0#32) (BitVec.ofNat 32 k.val) = 1#1 :=
      IntOp.cmpi_eq.2 (by subst h; simp [IntOp.addi])
    rw [e, if_pos h]
    simp
  · have e : IntOp.cmpi .eq (IntOp.addi (BitVec.ofNat 32 n.val) 0#32) (BitVec.ofNat 32 k.val) = 0#1 :=
      eq_zero_of_ne_one fun e1 => h (Fin.ext (by
        have e2 := congrArg BitVec.toNat (IntOp.cmpi_eq.1 e1)
        simp [IntOp.addi, BitVec.toNat_ofNat] at e2
        omega))
    rw [e, if_neg h]
    simp

/-- The row's scale: the reciprocal of one plus the row sum of `A`. -/
theorem scale_apply (A : (⟨S16x2048x2048, .f32⟩ : BufTy).Contents (Elt Ideal)) (c : Fin 16) (n : Fin 2048) :
    val_main_v10 (F := Ideal) A (ix2 c n) = Ideal.div one (one + (zero + ∑ k : Fin 2048, A (ix3 c n k))) := by
  rw [val_main_v10_apply, val_main_v9_apply, val_main_cst_1_apply, val_main_v8_apply, val_main_v7_apply, val_main_cst_0_apply,
    val_main_v6_apply, val_main_cst_apply]
  have e : ∀ k : Fin 2048, idx_main_v6 (ix2 c n) k = ix3 c n k := fun k =>
    funext fun a => Fin.ext (by match a with | ⟨0, _⟩ => rfl | ⟨1, _⟩ => rfl | ⟨2, _⟩ => rfl)
  simp only [e]
  rfl

/-- The normalised adjacency at `(c, n, k)`. -/
theorem normAdj_apply (A : (⟨S16x2048x2048, .f32⟩ : BufTy).Contents (Elt Ideal)) (c : Fin 16) (n k : Fin 2048) :
    val_main_v16 (F := Ideal) A (ix3 c n k)
      = (A (ix3 c n k) + val_main_v5 (F := Ideal) (ix2 n k)) * val_main_v10 (F := Ideal) A (ix2 c n) := by
  rw [val_main_v16_apply, val_main_v13_apply, val_main_v12_apply, val_main_v11_apply, val_main_v15_apply, val_main_v14_apply]
  have e1 : idx_main_v11 (idx_main_v12 (ix3 c n k)) = ix2 n k :=
    funext fun a => Fin.ext (by match a with | ⟨0, _⟩ => rfl | ⟨1, _⟩ => rfl)
  have e2 : idx_main_v14 (idx_main_v15 (ix3 c n k)) = ix2 c n :=
    funext fun a => Fin.ext (by match a with | ⟨0, _⟩ => rfl | ⟨1, _⟩ => rfl)
  rw [e1, e2]
  rfl

/-- The propagated features at `(c, n, d)`: the normalised row against column `d` of the batch's features. -/
theorem propagate_apply (X : (⟨S16x2048x64, .f32⟩ : BufTy).Contents (Elt Ideal)) (A : (⟨S16x2048x2048, .f32⟩ : BufTy).Contents (Elt Ideal))
    (c : Fin 16) (n : Fin 2048) (d : Fin 64) :
    val_main_v17 (F := Ideal) X A (ix3 c n d) = ∑ k : Fin 2048, val_main_v16 (F := Ideal) A (ix3 c n k) * X (ix3 c k d) := by
  rw [val_main_v17_apply]
  have el : ∀ k : Fin 2048, lidx_main_v17 (ix3 c n d) k = ix3 c n k := fun k =>
    funext fun a => Fin.ext (by match a with | ⟨0, _⟩ => rfl | ⟨1, _⟩ => rfl | ⟨2, _⟩ => rfl)
  have er : ∀ k : Fin 2048, ridx_main_v17 (ix3 c n d) k = ix3 c k d := fun k =>
    funext fun a => Fin.ext (by match a with | ⟨0, _⟩ => rfl | ⟨1, _⟩ => rfl | ⟨2, _⟩ => rfl)
  simp only [el, er]

/-- The reference's result at `(c, n, d)`. -/
theorem ref_apply (X H : (⟨S16x2048x64, .f32⟩ : BufTy).Contents (Elt Ideal)) (A : (⟨S16x2048x2048, .f32⟩ : BufTy).Contents (Elt Ideal))
    (c : Fin 16) (n : Fin 2048) (d : Fin 64) :
    val_main_v22 (F := Ideal) X H A (ix3 c n d) = half * H (ix3 c n d) + half * val_main_v17 (F := Ideal) X A (ix3 c n d) := by
  rw [val_main_v22_apply, val_main_v19_apply, val_main_v21_apply, val_main_v18_apply, val_main_v20_apply, val_main_cst_2_apply,
    val_main_cst_3_apply]
  rfl

/-- Where the entries of `A` and `x` are finite and one plus each row sum of `A` is not zero, the reference computes the layer. -/
theorem ref_eq (X H : (⟨S16x2048x64, .f32⟩ : BufTy).Contents (Elt Ideal)) (A : (⟨S16x2048x2048, .f32⟩ : BufTy).Contents (Elt Ideal))
    (hX : ∀ i, ∃ r : ℝ, X i = r) (hA : ∀ i, ∃ r : ℝ, A i = r)
    (hdeg : ∀ (c : Fin 16) (n : Fin 2048), one + (zero + ∑ k : Fin 2048, A (ix3 c n k)) ≠ zero) :
    val_main_v22 (F := Ideal) X H A = G X H A := by
  funext i
  obtain ⟨c, n, d, rfl⟩ : ∃ (c : Fin 16) (n : Fin 2048) (d : Fin 64), i = ix3 c n d := ⟨i 0, i 1, i 2, eq_ix3 i⟩
  show _ = layer X H A c n d
  rw [ref_apply, propagate_apply]
  simp only [normAdj_apply, scale_apply]
  unfold layer onePlusDeg
  have hz : zero = 0 := Ideal.ofBits_zero_f32
  have hd := hdeg c n
  rw [hz, zero_add] at hd ⊢
  -- the row sum is a real number, so the scale is one
  choose a ha using fun k : Fin 2048 => hA (ix3 c n k)
  have hs : one + ∑ k : Fin 2048, A (ix3 c n k) = ((1 + ∑ k : Fin 2048, a k : ℝ) : EReal) := by
    rw [one_eq, Finset.sum_congr rfl fun k _ => ha k, ← coe_sum, ← EReal.coe_add]
  have hne : (1 + ∑ k : Fin 2048, a k : ℝ) ≠ 0 := fun e0 => hd (by rw [hs, e0]; rfl)
  have hR : ∃ r : ℝ, Ideal.div one (one + ∑ k : Fin 2048, A (ix3 c n k)) = r :=
    ⟨1 * (1 / (1 + ∑ k : Fin 2048, a k)), by rw [hs, Ideal.div_coe hne, one_eq, ← EReal.coe_mul]⟩
  rw [scaled_rows (fun k : Fin 2048 => A (ix3 c n k)) (fun k : Fin 2048 => X (ix3 c k d))
    (fun k : Fin 2048 => val_main_v5 (F := Ideal) (ix2 n k)) n _ (fun k => hA _) (fun k => hX _) (fun k => eye_apply n k) hR]

end Cert.ReferenceIdeal.RefValue

end
-- ==== Proof.PreDecode.lean ====
/-
  What the precondition says of the argument arrays, over the extended reals: every entry of `x` and of `A` is a real number
  (its absolute value is below `+∞`), and for every batch `c` and node `n` one plus the row sum `Σₖ A[c,n,k]` is not zero — the
  domain of the reference's reciprocal `1 / (1 + Σₖ A[c,n,k])`.
-/
import proofs.«179840_j75153337745451_2_alg».proof.Proof.Gen.Pre_finite_inputs
import proofs.«179840_j75153337745451_2_alg».proof.Proof.Spec
import Idealize.ShloMosaic.Lib.ReduceAll
import Idealize.ShloMosaic.Lib.ValueIdx
import Idealize.ShloMosaic.PureOps.Ideal.Laws

noncomputable section

namespace Cert.Pre_finite_inputs.Decode

open Idealize.ShloMosaic Idealize.ShloMosaic.ValueIdx Cert.Pre_finite_inputs Cert.Spec

instance : Subsingleton S_.Idx := ⟨fun a b => funext fun d => d.elim0⟩

/-- A strict comparison that answers one holds. -/
theorem lt_of_cmp_olt {a b : EReal} (h : Ideal.cmp .olt a b = 1#1) : a < b := by
  by_contra hab
  simp [Ideal.cmp, hab] at h

/-- A disequality test that answers one holds. -/
theorem ne_of_cmp_une {a b : EReal} (h : Ideal.cmp .une a b = 1#1) : a ≠ b := by
  intro hab
  subst hab
  simp [Ideal.cmp] at h

/-- An extended real whose absolute value is below the word `0x7F800000` (`+∞`) is a real number. -/
theorem real_of_abs_lt (x : EReal) (h : Ideal.cmp .olt (max x (-x)) (Ideal.ofBits .f32 0x7F800000#32) = 1#1) : ∃ r : ℝ, x = r := by
  have hlt := lt_of_cmp_olt h
  have htop : Ideal.ofBits .f32 0x7F800000#32 = ⊤ := by simp [Ideal.ofBits, Ideal.ieee]
  rw [htop] at hlt
  induction x using EReal.rec with
  | bot => simp at hlt
  | coe r => exact ⟨r, rfl⟩
  | top => simp at hlt

variable [Facts]

/-- The host's row sum of `A` at `(c, n)`: zero plus the sum of the row. -/
theorem rowSum_apply (A : FVec Ideal S16x2048x2048 .f32) (c : Fin 16) (n : Fin 2048) :
    Host.reduceAdd (F := Ideal) A (constant (F := Ideal) S_ .f32 0x00000000#32) Facts.reducesTo_S16x2048x2048_S16x2048_d2 Facts.h_S_ (ix2 c n)
      = Ideal.ofBits .f32 0x00000000#32 + ∑ k : Fin 2048, A (ix3 c n k) := by
  simp only [Host.reduceAdd, Ideal.hostReduceAdd_def]
  rw [Ideal.hostReduceAdd_single Facts.reducesTo_S16x2048x2048_S16x2048_d2 (by decide)]
  refine congrArg₂ (· + ·) rfl (Finset.sum_congr rfl fun k _ => ?_)
  exact congrArg A (funext fun a => Fin.ext (by match a with | ⟨0, _⟩ => rfl | ⟨1, _⟩ => rfl | ⟨2, _⟩ => rfl))

/-- The precondition, read: `x` and `A` hold real numbers, and one plus every row sum of `A` is not zero. -/
theorem decode (X H : FVec Ideal S16x2048x64 .f32) (A : FVec Ideal S16x2048x2048 .f32)
    (h : fn (F := Ideal) X H A = fun _ => 1#1) :
    (∀ i, ∃ r : ℝ, X i = r) ∧ (∀ i, ∃ r : ℝ, A i = r)
      ∧ ∀ (c : Fin 16) (n : Fin 2048),
          one + (Ideal.ofBits .f32 0x00000000#32 + ∑ k : Fin 2048, A (ix3 c n k)) ≠ Ideal.ofBits .f32 0x00000000#32 := by
  have h0 := congrFun h ix0
  dsimp only [fn, fn_part1] at h0
  obtain ⟨h123, h4⟩ := IntOp.andi_eq_one.1 h0
  obtain ⟨h12, h3⟩ := IntOp.andi_eq_one.1 h123
  obtain ⟨h1, -⟩ := IntOp.andi_eq_one.1 h12
  refine ⟨fun i => ?_, fun i => ?_, fun c n => ?_⟩
  · exact real_of_abs_lt (X i) (Host.reduce_andi_all _ _ _ _ ix0 h1 i)
  · exact real_of_abs_lt (A i) (Host.reduce_andi_all _ _ _ _ ix0 h3 i)
  · have e := Host.reduce_andi_all _ _ _ _ ix0 h4 (ix2 c n)
    rw [← rowSum_apply]
    exact ne_of_cmp_une e

end Cert.Pre_finite_inputs.Decode

end
-- ==== Proof.lean ====
/-
  A graph layer with self loops and degree normalisation, on sixteen graphs of 2048 nodes with 64 features:

      out[c,n,d] = ½ · h[c,n,d] + ½ · Σₖ Â[c,n,k] · x[c,k,d],     Â = D⁻¹ (A + I),   D[c,n] = 1 + Σₖ A[c,n,k].

  The reference scales every entry of `A + I` by `1 / D[c,n]` and then contracts with `x`. The kernel streams row tiles of `A`,
  contracts the raw tile with `x`, adds the node's own features (the identity's contribution) and scales the 64 results of the
  row once: `(Σₖ A[c,n,k] · x[c,k,d] + x[c,n,d]) · (1 / D[c,n])`. Over the reals the two are one number by distributivity; over the
  extended reals this needs the entries of `A` and `x` finite and `D[c,n] ≠ 0`, so that the scale is finite — which is what the
  precondition states (where `D[c,n] = 0` the reference itself divides by zero).

  The pieces: the layer as one function of the arrays and the law between the two arrangements (Spec); the kernel's tile
  arithmetic at an entry (Payload, PointValue), the staging buffer after the body (Piece), and the result array from the
  thirty-two blocks (Blocks); the reference stage by stage (RefValue); the precondition read (PreDecode). The three frames are the
  generated runs; the idealization rewrote nothing.
-/
import proofs.«179840_j75153337745451_2_alg».proof.Defs
import proofs.«179840_j75153337745451_2_alg».proof.Proof.Gen.Kernel
import proofs.«179840_j75153337745451_2_alg».proof.Proof.Gen.Kernel.Skeleton
import proofs.«179840_j75153337745451_2_alg».proof.Proof.Gen.Kernel.Launch
import proofs.«179840_j75153337745451_2_alg».proof.Proof.Gen.Kernel.Points
import proofs.«179840_j75153337745451_2_alg».proof.Proof.Gen.Kernel.Frame
import proofs.«179840_j75153337745451_2_alg».proof.Proof.Gen.KernelIdeal
import proofs.«179840_j75153337745451_2_alg».proof.Proof.Gen.KernelIdeal.Skeleton
import proofs.«179840_j75153337745451_2_alg».proof.Proof.Gen.KernelIdeal.Launch
import proofs.«179840_j75153337745451_2_alg».proof.Proof.Gen.KernelIdeal.Points
import proofs.«179840_j75153337745451_2_alg».proof.Proof.Gen.KernelIdeal.Frame
import proofs.«179840_j75153337745451_2_alg».proof.Proof.Gen.ReferenceIdeal
import proofs.«179840_j75153337745451_2_alg».proof.Proof.Gen.Pre_finite_inputs
import proofs.«179840_j75153337745451_2_alg».proof.Proof.Gen.KernelIdeal.Value
import proofs.«179840_j75153337745451_2_alg».proof.Proof.Gen.ReferenceIdeal.Run
import proofs.«179840_j75153337745451_2_alg».proof.Proof.Gen.ReferenceIdeal.Read
import proofs.«179840_j75153337745451_2_alg».proof.Proof.Blocks
import proofs.«179840_j75153337745451_2_alg».proof.Proof.RefValue
import proofs.«179840_j75153337745451_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the (agreeing) argument arrays: the kernel always, the reference where the precondition
    keeps its reciprocal finite. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _).trans ?_
  rw [(hagree c).1, (hagree c).2.1, (hagree c).2.2]
  obtain ⟨hX, hA, hdeg⟩ := Cert.Pre_finite_inputs.Decode.decode _ _ _ (hpre c)
  exact Cert.ReferenceIdeal.RefValue.ref_eq _ _ _ hX hA hdeg

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
